-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16x2048x64 .f32) (main_arg1 : FVec F S16x2048x2048 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  main_v8
-- ==== Kernel.lean ====
abbrev S16x2048x64 : Shape := ⟨3, ![16, 2048, 64]⟩
abbrev S16x2048x2048 : Shape := ⟨3, ![16, 2048, 2048]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S2048x64 : Shape := ⟨2, ![2048, 64]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S512x64 : Shape := ⟨2, ![512, 64]⟩
abbrev S1x512x64 : Shape := ⟨3, ![1, 512, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v12 : BitVec 32 := Scalar.addi v0 c0_i32
  v12
def k0_off1 (i : grid0.Coords) (c0_i32 : BitVec 32) : Fin 3 → Nat :=
  let c0_7 : Index := 0#32
  let arg1 : BitVec 32 := BitVec.ofNat 32 (i 1).val
  let c1024_i32 : BitVec 32 := 1024#32
  let v0 : BitVec 32 := Scalar.muli arg1 c1024_i32
  let v12 : BitVec 32 := Scalar.addi v0 c0_i32
  let v13 : BitVec 32 := v12
  let v14 : Index := Scalar.indexCast v13
  let c0_8 : Index := 0#32
  ![0, v14.toNat, 0]
def k0_mult2 (i : grid0.Coords) : BitVec 32 :=
  let arg1 : BitVec 32 := BitVec.ofNat 32 (i 1).val
  let c1024_i32 : BitVec 32 := 1024#32
  let v0 : BitVec 32 := Scalar.muli arg1 c1024_i32
  let c512_i32 : BitVec 32 := 512#32
  let v31 : BitVec 32 := Scalar.addi v0 c512_i32
  v31
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x1024x2048_S1x512x2048_0_0_0 : ∀ a, (![0, 0, 0] : Fin 3 → Nat) a + S1x512x2048.size a ≤ S1x1024x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  h_S1x512x64 : 0 < S1x512x64.numel
  shapeCasts_S1x512x64_S512x64 : S1x512x64.ShapeCasts S512x64
  broadcasts_S512x1_S512x64 : S512x1.Broadcasts S512x64
  inb_S1x1024x64_S1x512x64_0_0_0 : ∀ a, (![0, 0, 0] : Fin 3 → Nat) a + S1x512x64.size a ≤ S1x1024x64.size a
  shapeCasts_S512x64_S1x512x64 : S512x64.ShapeCasts S1x512x64
  inb_S1x1024x2048_S1x512x2048_0_512_0 : ∀ a, (![0, 512, 0] : Fin 3 → Nat) a + S1x512x2048.size a ≤ S1x1024x2048.size a
  inb_S1x1024x64_S1x512x64_0_512_0 : ∀ a, (![0, 512, 0] : Fin 3 → Nat) a + S1x512x64.size a ≤ S1x1024x64.size a
  dot_S512x2048_S2048x64_S512x64_1_0_0_1_n_n_wf : DotDims.WF S512x2048 S2048x64 S512x64 [1] [0] [0] [1] [] []
  hrank0 : 0 < grid0.rank
  k0_mult1_dvd : ∀ i : grid0.Coords, 512 ∣ (k0_mult1 i).toNat
  k0_off1_inb : ∀ i : grid0.Coords, ∀ (r : Fin 2), ∀ a, (k0_off1 i (BitVec.ofNat 32 (512 * r.val))) a + S1x512x64.size a ≤ S1x2048x64.size a
  k0_mult2_dvd : ∀ i : grid0.Coords, 512 ∣ (k0_mult2 i).toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x2048x64.size a
  hwx0_2 : ∀ i : grid0.Coords, EltTy.bits .f32 = 32 ∨ (Rect.block (s := S16x2048x64) S1x1024x64.size (cc0_transform_2 i) (hinb0_2 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S2048x2048 : Shape := ⟨2, ![2048, 2048]⟩
abbrev S_ : Shape := ⟨0, ![]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S2048x2048, .i32⟩
  | .hbm, ⟨3, _⟩ => ⟨S2048x2048, .i32⟩
  | .hbm, ⟨4, _⟩ => ⟨S_, .i32⟩
  | .hbm, ⟨5, _⟩ => ⟨S2048x2048, .i32⟩
  | .hbm, ⟨6, _⟩ => ⟨S2048x2048, .i32⟩
  | .hbm, ⟨7, _⟩ => ⟨S2048x2048, .i1⟩
  | .hbm, ⟨8, _⟩ => ⟨S2048x2048, .f32⟩
  | .hbm, ⟨9, _⟩ => ⟨S1x2048x2048, .f32⟩
  | .hbm, ⟨10, _⟩ => ⟨S16x2048x2048, .f32⟩
  | .hbm, ⟨11, _⟩ => ⟨S16x2048x2048, .f32⟩
  | .hbm, ⟨12, _⟩ => ⟨S16x2048x64, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x64, .f32⟩
  | .hbm, ⟨17, _⟩ => ⟨S16x2048x64, .f32⟩
  | .hbm, ⟨18, _⟩ => ⟨S16x2048x64, .i1⟩
  | .hbm, ⟨19, _⟩ => ⟨S_, .f32⟩
  | .hbm, ⟨20, _⟩ => ⟨S16x2048x64, .f32⟩
  | .hbm, ⟨21, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S16x2048_S16x2048x1_0_1 : S16x2048.BroadcastsInDim S16x2048x1 (![0, 1] : Fin 2 → Fin S16x2048x1.rank)
  bcast_S16x2048x1_S16x2048x64_0_1_2 : S16x2048x1.BroadcastsInDim S16x2048x64 (![0, 1, 2] : Fin 3 → Fin S16x2048x64.rank)
  bcast_S_S16x2048x64 : S_.BroadcastsInDim S16x2048x64 (![] : Fin 0 → Fin S16x2048x64.rank)
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  One element of a normalized neighbourhood average, in the two ways the two programs compute it.

  For a row `e` of edge weights, the column `n` of node features it meets and the feature `s` of the row's own node:

    rowOut e n s = ((∑ₖ eₖ · nₖ) + s) / ((∑ₖ eₖ) + 1)        — the self-loop added after the sums,
    rowRef e n r = (∑ₖ (eₖ + δᵣₖ) · nₖ) / (0 + ∑ₖ (eₖ + δᵣₖ))   — the self-loop added to the weights first (δ the identity matrix),

  both quotients taken by the extended reals' division. When every `eₖ` and `nₖ` is a real number the two numerators and
  the two denominators are equal (distributivity, and ∑ₖ δᵣₖ · nₖ = nᵣ), so the two quotients are the same extended real
  whatever the denominator is — zero included. Over infinite entries distributivity fails, which is where finiteness of the
  inputs is used.
-/
import Idealize.ShloMosaic.PureOps.Ideal
import Idealize.ShloMosaic.PureOps.Ideal.Laws
import Idealize.ShloMosaic.Lib.ValueIdx

noncomputable section

open scoped BigOperators

namespace Cert.Gnn

open Idealize.ShloMosaic

/-- The value the f32 pattern of `1.0` denotes. -/
abbrev onePat : EReal := Ideal.ofBits .f32 0x3F800000#32

/-- The value the f32 pattern of `+0.0` denotes. -/
abbrev zeroPat : EReal := Ideal.ofBits .f32 0x00000000#32

theorem onePat_eq : onePat = 1 := IdealRules.sign_bit.ideal_onePat .f32

theorem zeroPat_eq : zeroPat = 0 := Ideal.ofBits_zero_f32

/-- One output element, the self-loop added after the sums. -/
def rowOut {N : ℕ} (e n : Fin N → EReal) (s : EReal) : EReal :=
  Ideal.div ((∑ k : Fin N, e k * n k) + s) ((∑ k : Fin N, e k) + onePat)

/-- The entry (r, k) of the identity matrix as the reference builds it: the comparison of the two 32-bit coordinate words
    (the row's plus a zero word), converted to a float. -/
def eye {N : ℕ} (r k : Fin N) : EReal :=
  FloatOps.uitofp (F := Ideal) .f32 (IntOp.cmpi .eq (IntOp.addi (BitVec.ofNat 32 r.val) 0#32) (BitVec.ofNat 32 k.val))

/-- One output element, the self-loop added to the weights first. -/
def rowRef {N : ℕ} (e n : Fin N → EReal) (r : Fin N) : EReal :=
  Ideal.div (∑ k : Fin N, (e k + eye r k) * n k) (zeroPat + ∑ k : Fin N, (e k + eye r k))

/-- Below 2³² the coordinate words are equal exactly when the coordinates are: the identity matrix's entry is 1 on the
    diagonal and 0 off it. -/
theorem eye_eq {N : ℕ} (hN : N ≤ 2 ^ 32) (r k : Fin N) : eye r k = if r = k then (1 : EReal) else 0 := by
  have hw : (BitVec.ofNat 32 r.val + 0#32 == BitVec.ofNat 32 k.val) = decide (r = k) := by
    rw [BitVec.add_zero]
    by_cases h : r = k
    · subst h; simp
    · have hne : BitVec.ofNat 32 r.val ≠ BitVec.ofNat 32 k.val := by
        intro hh
        have h1 := congrArg BitVec.toNat hh
        simp only [BitVec.toNat_ofNat] at h1
        have hr := r.isLt; have hk := k.isLt
        rw [Nat.mod_eq_of_lt (by omega), Nat.mod_eq_of_lt (by omega)] at h1
        exact h (Fin.ext h1)
      simp [h, hne]
  show (((BitVec.ofBool (BitVec.ofNat 32 r.val + 0#32 == BitVec.ofNat 32 k.val)).toNat : ℝ) : EReal) = _
  rw [hw]
  by_cases h : r = k
  · simp [h]
  · simp [h]

/-- A finite sum of real numbers, taken in the extended reals, is the real sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW: over real entries, adding the identity to the weights before the two sums, or the row's own feature and 1
    after them, gives the same numerator and the same denominator, hence the same quotient. -/
theorem rowRef_eq_rowOut {N : ℕ} (hN : N ≤ 2 ^ 32) (e n : Fin N → EReal) (r : Fin N)
    (he : ∀ k, ∃ x : ℝ, e k = (x : EReal)) (hn : ∀ k, ∃ x : ℝ, n k = (x : EReal)) :
    rowRef e n r = rowOut e n (n r) := by
  choose e' he' using he
  choose n' hn' using hn
  have hnum : (∑ k : Fin N, (e k + eye r k) * n k) = (∑ k : Fin N, e k * n k) + n r := by
    have h1 : ∀ k : Fin N, (e k + eye r k) * n k = (((e' k + if r = k then 1 else 0) * n' k : ℝ) : EReal) := by
      intro k
      rw [he' k, hn' k, eye_eq hN]
      by_cases h : r = k
      · rw [if_pos h, if_pos h, EReal.coe_mul, EReal.coe_add, EReal.coe_one]
      · rw [if_neg h, if_neg h, add_zero, add_zero, EReal.coe_mul]
    have h2 : ∀ k : Fin N, e k * n k = ((e' k * n' k : ℝ) : EReal) := by
      intro k; rw [he' k, hn' k, EReal.coe_mul]
    simp only [h1, h2, hn' r]
    rw [← coe_sum, ← coe_sum, ← EReal.coe_add]
    congr 1
    simp only [add_mul, Finset.sum_add_distrib, ite_mul, one_mul, zero_mul, Finset.sum_ite_eq, Finset.mem_univ, if_true]
  have hden : (zeroPat + ∑ k : Fin N, (e k + eye r k)) = (∑ k : Fin N, e k) + onePat := by
    have h1 : ∀ k : Fin N, e k + eye r k = (((e' k + if r = k then 1 else 0) : ℝ) : EReal) := by
      intro k
      rw [he' k, eye_eq hN]
      by_cases h : r = k
      · rw [if_pos h, if_pos h, EReal.coe_add, EReal.coe_one]
      · rw [if_neg h, if_neg h, add_zero, add_zero]
    have h2 : ∀ k : Fin N, e k = ((e' k : ℝ) : EReal) := he'
    rw [zeroPat_eq, zero_add, onePat_eq]
    simp only [h1]
    rw [Finset.sum_congr rfl (fun k _ => h2 k), ← coe_sum, ← coe_sum, ← EReal.coe_one, ← EReal.coe_add]
    congr 1
    simp only [Finset.sum_add_distrib, Finset.sum_ite_eq, Finset.mem_univ, if_true]
  unfold rowRef rowOut
  rw [hnum, hden]

/-! ## The whole result -/

/-- The node features, f32[16, 2048, 64], and the edge weights, f32[16, 2048, 2048], as extended reals. -/
abbrev Nodes : Type := (⟨3, ![16, 2048, 64]⟩ : Shape).Idx → EReal
abbrev Edges : Type := (⟨3, ![16, 2048, 2048]⟩ : Shape).Idx → EReal

open Idealize.ShloMosaic.ValueIdx in
/-- The result at batch b, node r, feature d: row r of the batch's weights against column d of its features, with node r's
    own feature as the self-loop. -/
def aggAt (nodes : Nodes) (edges : Edges) (b : Fin 16) (r : Fin 2048) (d : Fin 64) : EReal :=
  rowOut (fun k : Fin 2048 => edges (ix3 b r k)) (fun k : Fin 2048 => nodes (ix3 b k d)) (nodes (ix3 b r d))

/-- The result array. -/
def agg (nodes : Nodes) (edges : Edges) : (⟨3, ![16, 2048, 64]⟩ : Shape).Idx → EReal :=
  fun j => aggAt nodes edges (j 0) (j 1) (j 2)

end Cert.Gnn

end
-- ==== Proof.Finite.lean ====
/-
  The precondition, read: every entry of both inputs is a real number.

  The precondition compares the absolute value of every entry with +∞, takes the conjunction over each array and the
  conjunction of the two. Where it holds, no entry is +∞ or −∞, so every entry is (the image of) a real number — which is
  what distributivity of the product over the sum needs.
-/
import proofs.«176962_j55731495633081_2_alg».proof.Pre_finite_inputs
import Idealize.ShloMosaic.Lib.ReduceAll
import Idealize.ShloMosaic.Lib.ValueIdx
import Idealize.ShloMosaic.PureOps.Ideal.Laws

noncomputable section

namespace Cert.Gnn.Finite

open Cert.Pre_finite_inputs Idealize.ShloMosaic Idealize.ShloMosaic.ValueIdx

instance : Subsingleton S_.Idx := ⟨fun _ _ => funext fun d => d.elim0⟩

/-- The f32 pattern of +∞ denotes the top of the extended reals. -/
theorem infPat_eq : Ideal.ofBits .f32 0x7F800000#32 = (⊤ : EReal) := by
  simp [Ideal.ofBits, Ideal.ieee]

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  rw [infPat_eq] at h
  have hlt : max x (-x) < ⊤ := by
    by_contra hn
    simp [Ideal.cmp, hn] at h
  induction x using EReal.rec with
  | bot => simp at hlt
  | top => simp at hlt
  | coe r => exact ⟨r, rfl⟩

/-- Under the precondition every entry of the node features and of the edge weights is a real number. -/
theorem real_of_pre [Cert.Pre_finite_inputs.Facts] (nodes : FVec Ideal S16x2048x64 .f32) (edges : FVec Ideal S16x2048x2048 .f32)
    (h : fn (F := Ideal) nodes edges = fun _ => 1#1) :
    (∀ i, ∃ r : ℝ, nodes i = (r : EReal)) ∧ (∀ i, ∃ r : ℝ, edges i = (r : EReal)) := by
  have h0 := congrFun h ix0
  dsimp only [fn] at h0
  obtain ⟨hn, he⟩ := IntOp.andi_eq_one.1 h0
  exact ⟨fun i => real_of_abs_lt _ (Host.reduce_andi_all _ _ _ _ ix0 hn i),
    fun i => real_of_abs_lt _ (Host.reduce_andi_all _ _ _ _ ix0 he i)⟩

end Cert.Gnn.Finite

end
-- ==== Proof.RefValue.lean ====
/-
  The reference, one element at a time.

  Read at (b, r, d), the reference's result is the quotient `rowRef` of Spec.lean for row r of batch b's edge weights and
  column d of batch b's node features: the weights plus the identity matrix contracted with the features, over the row sum
  of the weights plus the identity. The final `where(isnan(out), 0, out)` keeps `out`: an extended real is never
  unequal to itself, so the mask is all zeros.
-/
import proofs.«176962_j55731495633081_2_alg».proof.Proof.Gen.ReferenceIdeal.Read
import proofs.«176962_j55731495633081_2_alg».proof.Proof.Spec

noncomputable section

open scoped BigOperators

namespace Cert.Gnn.Ref

open Cert.ReferenceIdeal Cert.ReferenceIdeal.Read Idealize.ShloMosaic Idealize.ShloMosaic.ValueIdx Cert.Gnn

/-! The composed index maps of the reference's layout operations, on indices written by coordinates. -/

theorem lidx9 (b : Fin 16) (r : Fin 2048) (d : Fin 64) (k : Fin 2048) : lidx_main_v9 (ix3 b r d) k = ix3 b r k :=
  funext fun a => by match a with | ⟨0, _⟩ => rfl | ⟨1, _⟩ => rfl | ⟨2, _⟩ => rfl
theorem ridx9 (b : Fin 16) (r : Fin 2048) (d : Fin 64) (k : Fin 2048) : ridx_main_v9 (ix3 b r d) k = ix3 b k d :=
  funext fun a => by match a with | ⟨0, _⟩ => rfl | ⟨1, _⟩ => rfl | ⟨2, _⟩ => rfl
theorem idx12 (b : Fin 16) (r : Fin 2048) (d : Fin 64) : idx_main_v12 (ix3 b r d) = ix3 b r (0 : Fin 1) :=
  funext fun a => by match a with | ⟨0, _⟩ => rfl | ⟨1, _⟩ => rfl | ⟨2, _⟩ => rfl
theorem idx11 (b : Fin 16) (r : Fin 2048) (u : Fin 1) : idx_main_v11 (ix3 b r u) = ix2 b r :=
  funext fun a => by match a with | ⟨0, _⟩ => rfl | ⟨1, _⟩ => rfl
theorem idx10 (b : Fin 16) (r : Fin 2048) (k : Fin 2048) : idx_main_v10 (ix2 b r) k = ix3 b r k :=
  funext fun a => by match a with | ⟨0, _⟩ => rfl | ⟨1, _⟩ => rfl | ⟨2, _⟩ => rfl
theorem idx7 (b : Fin 16) (r k : Fin 2048) : idx_main_v7 (ix3 b r k) = ix3 (0 : Fin 1) r k :=
  funext fun a => by match a with | ⟨0, _⟩ => rfl | ⟨1, _⟩ => rfl | ⟨2, _⟩ => rfl
theorem idx6 (u : Fin 1) (r k : Fin 2048) : idx_main_v6 (ix3 u r k) = ix2 r k :=
  funext fun a => by match a with | ⟨0, _⟩ => rfl | ⟨1, _⟩ => rfl

/-- The identity matrix the reference adds to the weights, at (b, r, k): 1 where r = k. -/
theorem eye_apply (b : Fin 16) (r k : Fin 2048) : val_main_v7 (F := Ideal) (ix3 b r k) = eye r k := by
  rw [val_main_v7_apply, idx7, val_main_v6_apply, idx6, val_main_v5_apply, val_main_v4_apply, val_main_v3_apply,
    val_main_v2_apply, val_main_c_apply, val_main_v0_apply, val_main_v1_apply]
  rfl

/-- No extended real differs from itself: the reference's NaN mask is zero and its select keeps the quotient. -/
theorem select_une_self (x z : EReal) :
    Scalar.select (FloatOps.cmpf (F := Ideal) (φ := .f32) .une x x) z x = x := by
  have h : FloatOps.cmpf (F := Ideal) (φ := .f32) .une x x = 0#1 := by
    show Ideal.cmp .une x x = 0#1
    simp [Ideal.cmp]
  rw [h]; exact select_zero _ _

/-- THE REFERENCE AT AN ELEMENT. -/
theorem result_apply (nodes : (⟨S16x2048x64, .f32⟩ : BufTy).Contents (Elt Ideal))
    (edges : (⟨S16x2048x2048, .f32⟩ : BufTy).Contents (Elt Ideal)) (b : Fin 16) (r : Fin 2048) (d : Fin 64) :
    val_main_v16 (F := Ideal) nodes edges (ix3 b r d)
      = rowRef (fun k : Fin 2048 => edges (ix3 b r k)) (fun k : Fin 2048 => nodes (ix3 b k d)) r := by
  rw [val_main_v16_apply, val_main_v14_apply, select_une_self, val_main_v13_apply, val_main_v9_apply,
    val_main_v12_apply, idx12, val_main_v11_apply, idx11, val_main_v10_apply]
  simp only [lidx9, ridx9, idx10, val_main_v8_apply, eye_apply, val_main_cst_apply]
  rfl

end Cert.Gnn.Ref

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.Payload.lean ====
/-
  What the kernel body stores, one element at a time.

  The body handles its 1024-row tile as two chunks of 512 rows. For each chunk it takes the chunk of edge weights E
  (512 × 2048), all node features X of the batch (2048 × 64) and the chunk's own rows S of X (512 × 64), and stores

      (E · X + S) / (rowsum(E) + 1)

  with the row sums kept as a column and broadcast along the features. Read at row p and feature q of the chunk this is
  `rowOut` of Spec.lean for row p of E, column q of X and the entry (p, q) of S: the matrix product is the sum over the
  contracted coordinate, the lane reduction the sum over the row, the roundings to bf16 before the product change nothing
  over the extended reals, and the leading unit axis of a block is cast away on the way in and put back on the way out.
-/
import proofs.«176962_j55731495633081_2_alg».proof.Proof.Gen.KernelIdeal.Skeleton
import proofs.«176962_j55731495633081_2_alg».proof.Proof.Spec
import proofs.«176962_j55731495633081_2_alg».proof.Proof.LibKeepdims
import Idealize.ShloMosaic.Lib.ValueIdx
import Idealize.ShloMosaic.Lib.ValueLayout
import Idealize.ShloMosaic.PureOps.Ideal.Laws

noncomputable section

open scoped BigOperators

namespace Cert.Gnn.Kern

open Cert.KernelIdeal Cert.KernelIdeal.Gen Idealize.ShloMosaic Idealize.ShloMosaic.ValueIdx Cert.Gnn

/-! The operand indices of the chunk's matrix product at output (p, q) and contracted coordinate k: (p, k) and (k, q). -/

theorem lhs_0 (j : S512x64.Idx) (c : dot_S512x2048_S2048x64_S512x64_1_0_0_1_n_n.contr.Idx) :
    (dot_S512x2048_S2048x64_S512x64_1_0_0_1_n_n.lhsIdx j c 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem lhs_1 (j : S512x64.Idx) (c : dot_S512x2048_S2048x64_S512x64_1_0_0_1_n_n.contr.Idx) :
    (dot_S512x2048_S2048x64_S512x64_1_0_0_1_n_n.lhsIdx j c 1).val = (c ⟨0, by decide⟩).val :=
  dot_S512x2048_S2048x64_S512x64_1_0_0_1_n_n.lhsIdx_val_of_single rfl j c
theorem rhs_0 (j : S512x64.Idx) (c : dot_S512x2048_S2048x64_S512x64_1_0_0_1_n_n.contr.Idx) :
    (dot_S512x2048_S2048x64_S512x64_1_0_0_1_n_n.rhsIdx j c 0).val = (c ⟨0, by decide⟩).val :=
  dot_S512x2048_S2048x64_S512x64_1_0_0_1_n_n.rhsIdx_val_of_single rfl j c
theorem rhs_1 (j : S512x64.Idx) (c : dot_S512x2048_S2048x64_S512x64_1_0_0_1_n_n.contr.Idx) :
    (dot_S512x2048_S2048x64_S512x64_1_0_0_1_n_n.rhsIdx j c 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The kernel's matrix product of a 512 × 2048 chunk with the 2048 × 64 features, into a zero accumulator, at (p, q): the
    sum over the 2048 contracted coordinates. -/
theorem matmul_chunk_apply (l : FVec Ideal S512x2048 .bf16) (rr : FVec Ideal S2048x64 .bf16) (p : Fin 512) (q : Fin 64) :
    matmul (F := Ideal) dot_S512x2048_S2048x64_S512x64_1_0_0_1_n_n none l rr (constant (F := Ideal) S512x64 .f32 0x00000000#32) (ix2 p q)
      = ∑ k : Fin 2048, l (ix2 p k) * rr (ix2 k q) := by
  refine (Ideal.matmul_constant_zero_apply dot_S512x2048_S2048x64_S512x64_1_0_0_1_n_n none l rr (ix2 p q)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p q)
      ((contrEquiv1 dot_S512x2048_S2048x64_S512x64_1_0_0_1_n_n 2048 rfl rfl).symm k) = ix2 p k :=
    funext fun a => Fin.ext (by
      match a with
      | ⟨0, _⟩ => exact lhs_0 _ _
      | ⟨1, _⟩ => exact (lhs_1 _ _).trans hk)
  have er : dot_S512x2048_S2048x64_S512x64_1_0_0_1_n_n.rhsIdx (ix2 p q)
      ((contrEquiv1 dot_S512x2048_S2048x64_S512x64_1_0_0_1_n_n 2048 rfl rfl).symm k) = ix2 k q :=
    funext fun a => Fin.ext (by
      match a with
      | ⟨0, _⟩ => exact (rhs_0 _ _).trans hk
      | ⟨1, _⟩ => exact rhs_1 _ _)
  rw [el, er]

/-- The denominator: the chunk's row sums kept as a column, plus one, broadcast along the features; at (p, q) the sum over
    row p plus the value of the pattern of 1.0. -/
theorem denom_apply (e5 : FVec Ideal S512x2048 .f32) (p : Fin 512) (q : Fin 64) :
    broadcastTo S512x64
        (addf (shapeCast S512x1 (multiReduction (F := Ideal) .add [1] S512 e5 0x00000000#32 reduces_S512x2048_S512 (.inl rfl) rfl)
          shapeCasts_S512_S512x1) (broadcast S512x1 (Scalar.ofBits (F := Ideal) .f32 0x3F800000#32)))
        broadcasts_S512x1_S512x64 (ix2 p q)
      = (∑ k : Fin 2048, e5 (ix2 p k)) + onePat :=
  (broadcastTo_a1_ab_apply _ broadcasts_S512x1_S512x64 p q).trans
    (congrArg₂ (· + ·)
      ((shapeCast_a_a1_apply _ shapeCasts_S512_S512x1 p (0 : Fin 1)).trans
        (multiReduction_add_rows_apply e5 0x00000000#32 reduces_S512x2048_S512 (.inl rfl) rfl p))
      rfl)

/-- One chunk's stored value at (p, q), over the chunk E, the features X and the chunk's own rows S as 2-d arrays. -/
theorem chunk_apply (e5 : FVec Ideal S512x2048 .f32) (n2 : FVec Ideal S2048x64 .f32) (s16 : FVec Ideal S512x64 .f32)
    (p : Fin 512) (q : Fin 64) :
    divf (addf (matmul (F := Ideal) dot_S512x2048_S2048x64_S512x64_1_0_0_1_n_n none (truncf .bf16 e5 bitsLt_bf16_f32)
            (truncf .bf16 n2 bitsLt_bf16_f32) (constant (F := Ideal) S512x64 .f32 0x00000000#32)) s16)
        (broadcastTo S512x64
          (addf (shapeCast S512x1 (multiReduction (F := Ideal) .add [1] S512 e5 0x00000000#32 reduces_S512x2048_S512 (.inl rfl) rfl)
            shapeCasts_S512_S512x1) (broadcast S512x1 (Scalar.ofBits (F := Ideal) .f32 0x3F800000#32)))
          broadcasts_S512x1_S512x64) (ix2 p q)
      = rowOut (fun k : Fin 2048 => e5 (ix2 p k)) (fun k : Fin 2048 => n2 (ix2 k q)) (s16 (ix2 p q)) := by
  unfold rowOut
  show Ideal.div (_ + _) _ = _
  exact congrArg₂ Ideal.div
    (congrArg₂ (· + ·) (matmul_chunk_apply (truncf .bf16 e5 bitsLt_bf16_f32) (truncf .bf16 n2 bitsLt_bf16_f32) p q) rfl)
    (denom_apply e5 p q)

/-- THE FIRST CHUNK's stored block at (u, p, q), over the three loaded blocks. -/
theorem pay3_apply (v1 : Vec Ideal S1x2048x64 .f32) (v4 : Vec Ideal S1x512x2048 .f32) (v15 : Vec Ideal S1x512x64 .f32)
    (u : Fin 1) (p : Fin 512) (q : Fin 64) :
    k0_pay3 (F := Ideal) v1 v4 v15 (ix3 u p q)
      = rowOut (fun k : Fin 2048 => v4 (ix3 (0 : Fin 1) p k)) (fun k : Fin 2048 => v1 (ix3 (0 : Fin 1) k q))
          (v15 (ix3 (0 : Fin 1) p q)) := by
  unfold k0_pay3 k0_pay2
  dsimp only
  refine (shapeCast_ab_1ab_apply _ shapeCasts_S512x64_S1x512x64 u p q).trans ?_
  refine (chunk_apply (shapeCast S512x2048 v4 shapeCasts_S1x512x2048_S512x2048)
    (shapeCast S2048x64 v1 shapeCasts_S1x2048x64_S2048x64) (shapeCast S512x64 v15 shapeCasts_S1x512x64_S512x64) p q).trans ?_
  have he : (fun k : Fin 2048 => shapeCast S512x2048 v4 shapeCasts_S1x512x2048_S512x2048 (ix2 p k))
      = fun k : Fin 2048 => v4 (ix3 (0 : Fin 1) p k) := funext fun k => shapeCast_1ab_ab_apply v4 _ p k
  have hn : (fun k : Fin 2048 => shapeCast S2048x64 v1 shapeCasts_S1x2048x64_S2048x64 (ix2 k q))
      = fun k : Fin 2048 => v1 (ix3 (0 : Fin 1) k q) := funext fun k => shapeCast_1ab_ab_apply v1 _ k q
  have hs : shapeCast S512x64 v15 shapeCasts_S1x512x64_S512x64 (ix2 p q) = v15 (ix3 (0 : Fin 1) p q) :=
    shapeCast_1ab_ab_apply v15 _ p q
  rw [he, hn, hs]

/-- THE SECOND CHUNK's stored block at (u, p, q), over the three loaded blocks. -/
theorem pay1_apply (v1 : Vec Ideal S1x2048x64 .f32) (v23 : Vec Ideal S1x512x2048 .f32) (v34 : Vec Ideal S1x512x64 .f32)
    (u : Fin 1) (p : Fin 512) (q : Fin 64) :
    k0_pay1 (F := Ideal) (k0_pay5 v23) (k0_pay6 v1 v23) v34 (ix3 u p q)
      = rowOut (fun k : Fin 2048 => v23 (ix3 (0 : Fin 1) p k)) (fun k : Fin 2048 => v1 (ix3 (0 : Fin 1) k q))
          (v34 (ix3 (0 : Fin 1) p q)) := by
  unfold k0_pay1 k0_pay5 k0_pay6 k0_pay4 k0_pay2
  dsimp only
  refine (shapeCast_ab_1ab_apply _ shapeCasts_S512x64_S1x512x64 u p q).trans ?_
  refine (chunk_apply (shapeCast S512x2048 v23 shapeCasts_S1x512x2048_S512x2048)
    (shapeCast S2048x64 v1 shapeCasts_S1x2048x64_S2048x64) (shapeCast S512x64 v34 shapeCasts_S1x512x64_S512x64) p q).trans ?_
  have he : (fun k : Fin 2048 => shapeCast S512x2048 v23 shapeCasts_S1x512x2048_S512x2048 (ix2 p k))
      = fun k : Fin 2048 => v23 (ix3 (0 : Fin 1) p k) := funext fun k => shapeCast_1ab_ab_apply v23 _ p k
  have hn : (fun k : Fin 2048 => shapeCast S2048x64 v1 shapeCasts_S1x2048x64_S2048x64 (ix2 k q))
      = fun k : Fin 2048 => v1 (ix3 (0 : Fin 1) k q) := funext fun k => shapeCast_1ab_ab_apply v1 _ k q
  have hs : shapeCast S512x64 v34 shapeCasts_S1x512x64_S512x64 (ix2 p q) = v34 (ix3 (0 : Fin 1) p q) :=
    shapeCast_1ab_ab_apply v34 _ p q
  rw [he, hn, hs]

end Cert.Gnn.Kern

end
-- ==== Proof.Block.lean ====
/-
  What the kernel body leaves in its output block.

  The body fills its 1024 × 64 output block with two stores of 512 rows. Both stores are restrictions of ONE function of the
  block's index: at (u, r, d) the quotient `rowOut` for row r of the edge tile, column d of the batch's node features, and
  the feature d of the node whose row this is — row 1024·i + r of the features, i the tile's position along the rows, read
  through the body's dynamic row offset. So the block as a whole is that function, whatever the order of the stores.
-/
import proofs.«176962_j55731495633081_2_alg».proof.Proof.Gen.KernelIdeal.Frame
import proofs.«176962_j55731495633081_2_alg».proof.Proof.Payload
import Idealize.ShloMosaic.Lib.Pipeline.Value
import Idealize.ShloMosaic.Lib.Tactic

noncomputable section

open scoped BigOperators

namespace Cert.Gnn.Kern

open Cert.KernelIdeal Cert.KernelIdeal.Gen Idealize.ShloMosaic Idealize.ShloMosaic.TcCoe Idealize.SL.Sem
open Idealize.ShloMosaic.ValueIdx Idealize.ShloMosaic.Tactic Cert.Gnn

/-- The row offset of the body's two loads of a chunk's own node features: 1024·i for the first chunk, 1024·i + 512 for the
    second, i the tile's position along the rows; the other two offsets are zero. -/
theorem selfOff (i : grid0.Coords) (w : BitVec 32) (r : ℕ) (hr : r < 2) (hw : w = BitVec.ofNat 32 (512 * r)) :
    k0_off1 i w 0 = 0 ∧ k0_off1 i w 1 = 1024 * (i 1).val + 512 * r ∧ k0_off1 i w 2 = 0 := by
  subst hw
  have h := k0_off1_eq i ⟨r, hr⟩
  exact ⟨congrFun h 0, congrFun h 1, congrFun h 2⟩

/-- Equal rows, columns and self-loop terms give equal quotients. -/
theorem rowOut_congr {N : ℕ} {e e' n n' : Fin N → EReal} {s s' : EReal} (he : ∀ k, e k = e' k) (hn : ∀ k, n k = n' k)
    (hs : s = s') : rowOut e n s = rowOut e' n' s' := by
  rw [funext he, funext hn, hs]

/-- THE BLOCK: for any function `G` of the block's index that is, at every (u, r, d), the quotient for row r of the edge tile
    `x0`, column d of the features `x1` and the entry (s, d) of `x1` at the row s = 1024·i + r, the body leaves `G`. -/
theorem block_eq (c : Dev nD) (i : grid0.Coords) (a2 : Memref sig .tc .vmem S1x1024x2048 .f32) (h2 : a2.IsWhole)
    (a3 : Memref sig .tc .vmem S1x2048x64 .f32) (h3 : a3.IsWhole) (a4 : Memref sig .tc .vmem S1x1024x64 .f32) (h4 : a4.IsWhole)
    (x0 : Vec Ideal S1x1024x2048 .f32) (x1 : Vec Ideal S1x2048x64 .f32) (G : S1x1024x64.Idx → EReal)
    (hG : ∀ (u : Fin 1) (r : Fin 1024) (d : Fin 64) (s : Fin 2048), s.val = 1024 * (i 1).val + r.val →
      G (ix3 u r d) = rowOut (fun k : Fin 2048 => x0 (ix3 (0 : Fin 1) r k)) (fun k : Fin 2048 => x1 (ix3 (0 : Fin 1) k d))
        (x1 (ix3 (0 : Fin 1) s d))) :
    out0_A_2 (F := Ideal) c i a2 h2 a3 h3 a4 h4 x0 x1 = G := by
  have hi : (i 1).val < 2 := (i 1).isLt
  have hL : ∀ p ∈ (kernelRun0_A (F := Ideal) c i a2 h2 a3 h3 a4 h4 x0 x1).1, ∀ x : p.1.shape.Idx, p.2 x = G (p.1.emb x) := by
    unfold kernelRun0_A
    dsimp only
    sl_unfold_run_names
    simp only [View.readAt_eq_ld, h2.read_unread, h3.read_unread]
    intro p hp
    rcases List.mem_cons.mp hp with rfl | hp
    · -- the second chunk: rows 512 … 1023 of the block
      intro x
      obtain ⟨u, pp, q, rfl⟩ : ∃ (u : Fin 1) (pp : Fin 512) (q : Fin 64), x = ix3 u pp q := ⟨x 0, x 1, x 2, eq_ix3 x⟩
      have hpp : pp.val < 512 := pp.isLt
      have hu : u.val = 0 := by omega
      obtain ⟨o0, o1, o2⟩ := selfOff i 512#32 1 (by decide) rfl
      dsimp only
      refine (pay1_apply _ _ _ u pp q).trans ?_
      have hemb : (Rect.unit (s := S1x1024x64) ![0, 512, 0] ![1, 512, 64] inb_S1x1024x64_S1x512x64_0_512_0).emb (ix3 u pp q)
          = ix3 u (⟨512 + pp.val, by omega⟩ : Fin 1024) q := funext fun a => Fin.ext (by
        match a with
        | ⟨0, _⟩ => show 0 + 1 * u.val = u.val; omega
        | ⟨1, _⟩ => show 512 + 1 * pp.val = 512 + pp.val; omega
        | ⟨2, _⟩ => show 0 + 1 * q.val = q.val; omega)
      rw [hemb, hG u ⟨512 + pp.val, by omega⟩ q ⟨1024 * (i 1).val + 512 + pp.val, by omega⟩ (by show 1024 * (i 1).val + 512 + pp.val = 1024 * (i 1).val + (512 + pp.val); omega)]
      refine rowOut_congr (fun k => congrArg x0 (funext fun a => Fin.ext ?_)) (fun k => congrArg x1 (funext fun a => Fin.ext ?_))
        (congrArg x1 (funext fun a => Fin.ext ?_))
      · match a with
        | ⟨0, _⟩ => show 0 + 1 * 0 = 0; omega
        | ⟨1, _⟩ => show 512 + 1 * pp.val = 512 + pp.val; omega
        | ⟨2, _⟩ => show 0 + 1 * k.val = k.val; omega
      · match a with
        | ⟨0, _⟩ => show 0 + 1 * 0 = 0; omega
        | ⟨1, _⟩ => show 0 + 1 * k.val = k.val; omega
        | ⟨2, _⟩ => show 0 + 1 * q.val = q.val; omega
      · match a with
        | ⟨0, _⟩ => show k0_off1 i 512#32 0 + 1 * 0 = 0; omega
        | ⟨1, _⟩ => show k0_off1 i 512#32 1 + 1 * pp.val = 1024 * (i 1).val + 512 + pp.val; omega
        | ⟨2, _⟩ => show k0_off1 i 512#32 2 + 1 * q.val = q.val; omega
    rcases List.mem_cons.mp hp with rfl | hp
    · -- the first chunk: rows 0 … 511 of the block
      intro x
      obtain ⟨u, pp, q, rfl⟩ : ∃ (u : Fin 1) (pp : Fin 512) (q : Fin 64), x = ix3 u pp q := ⟨x 0, x 1, x 2, eq_ix3 x⟩
      have hpp : pp.val < 512 := pp.isLt
      have hu : u.val = 0 := by omega
      obtain ⟨o0, o1, o2⟩ := selfOff i 0#32 0 (by decide) rfl
      dsimp only
      refine (pay3_apply _ _ _ u pp q).trans ?_
      have hemb : (Rect.unit (s := S1x1024x64) ![0, 0, 0] ![1, 512, 64] inb_S1x1024x64_S1x512x64_0_0_0).emb (ix3 u pp q)
          = ix3 u (⟨pp.val, by omega⟩ : Fin 1024) q := funext fun a => Fin.ext (by
        match a with
        | ⟨0, _⟩ => show 0 + 1 * u.val = u.val; omega
        | ⟨1, _⟩ => show 0 + 1 * pp.val = pp.val; omega
        | ⟨2, _⟩ => show 0 + 1 * q.val = q.val; omega)
      rw [hemb, hG u ⟨pp.val, by omega⟩ q ⟨1024 * (i 1).val + pp.val, by omega⟩ rfl]
      refine rowOut_congr (fun k => congrArg x0 (funext fun a => Fin.ext ?_)) (fun k => congrArg x1 (funext fun a => Fin.ext ?_))
        (congrArg x1 (funext fun a => Fin.ext ?_))
      · match a with
        | ⟨0, _⟩ => show 0 + 1 * 0 = 0; omega
        | ⟨1, _⟩ => show 0 + 1 * pp.val = pp.val; omega
        | ⟨2, _⟩ => show 0 + 1 * k.val = k.val; omega
      · match a with
        | ⟨0, _⟩ => show 0 + 1 * 0 = 0; omega
        | ⟨1, _⟩ => show 0 + 1 * k.val = k.val; omega
        | ⟨2, _⟩ => show 0 + 1 * q.val = q.val; omega
      · match a with
        | ⟨0, _⟩ => show k0_off1 i 0#32 0 + 1 * 0 = 0; omega
        | ⟨1, _⟩ => show k0_off1 i 0#32 1 + 1 * pp.val = 1024 * (i 1).val + pp.val; omega
        | ⟨2, _⟩ => show k0_off1 i 0#32 2 + 1 * q.val = q.val; omega
    exact absurd hp List.not_mem_nil
  unfold out0_A_2
  rw [View.read_writes_eq_canon _ _ _ (cover0_A_2 c i a2 h2 a3 h3 a4 h4 x0 x1)]
  funext y
  exact View.canon_apply_of_pieces G _ hL y (cover0_A_2 c i a2 h2 a3 h3 a4 h4 x0 x1 y)

end Cert.Gnn.Kern

end
-- ==== Proof.KernelValue.lean ====
/-
  The kernel's result array.

  The grid has 16 × 2 points: point (b, i) takes rows 1024·i … 1024·i + 1023 of batch b's edge weights, all of batch b's node
  features, and writes rows 1024·i … 1024·i + 1023 of batch b's result. What it writes back is block (b, i) of ONE function of
  the two argument arrays — `agg` of Spec.lean — because the rows of its edge tile are rows 1024·i + r of the batch, its
  feature block is the batch's, and the self-loop row the body picks by its dynamic offset is again row 1024·i + r. The 32
  blocks tile the result, so after the run the result array is `agg` of the arguments.
-/
import proofs.«176962_j55731495633081_2_alg».proof.Proof.Gen.KernelIdeal.Value
import proofs.«176962_j55731495633081_2_alg».proof.Proof.Block

noncomputable section

open scoped BigOperators

namespace Cert.Gnn.Kern

open Cert.KernelIdeal Cert.KernelIdeal.Gen Idealize.ShloMosaic Idealize.ShloMosaic.TcCoe Idealize.SL.Sem
open Idealize.ShloMosaic.Pipeline (Dat)
open Idealize.ShloMosaic.ValueIdx Cert.Gnn

variable (m : (ℓ : Loc nD τ sig) → Buf (Elt Ideal) ℓ) (ρ : Dev nD → PrngReg)

/-- The printed index maps, decided over the 32 grid points: the edge tile moves with the output block on both axes, the
    feature block with its batch only, and the output's block indices are the point's two grid coordinates. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (1 : Fin 3) = (grid0.coords t 1).val
    ∧ win0_2.index t (0 : Fin 3) < 16 ∧ win0_2.index t (1 : Fin 3) < 2 :=
  (by decide +kernel : ∀ t : Fin grid0.N, _)

/-- Every block of the result is some point's. -/
theorem idx_onto : ∀ (q0 : Fin 16) (q1 : Fin 2), ∃ t : Fin cfg0.N, win0_2.index t = ![q0.val, q1.val, 0] :=
  (by decide +kernel : ∀ (q0 : Fin 16) (q1 : Fin 2), ∃ t : Fin grid0.N, win0_2.index t = ![q0.val, q1.val, 0])

/-- The edge tile of point `t` at (0, r, k) is the edge weights at (B, R, k), B the block's batch and R = 1024·i + r. -/
theorem edges_blk (c : Dev nD) (t : Fin cfg0.N) (r : Fin 1024) (k : Fin 2048) (B : Fin 16) (R : Fin 2048)
    (hB : B.val = win0_0.index t (0 : Fin 3)) (hR : R.val = win0_0.index t (1 : Fin 3) * 1024 + r.val)
    (h2 : win0_0.index t (2 : Fin 3) = 0) :
    iblk m c 0 t (ix3 (0 : Fin 1) r k) = V m c main_arg1 (ix3 B R k) := by
  show V m c main_arg1 (((cfg0.win 0).blk t).view.emb (ix3 (0 : Fin 1) r k)) = _
  refine congrArg (V m c main_arg1) (funext fun a => Fin.ext ?_)
  match a with
  | ⟨0, _⟩ => show win0_0.index t (0 : Fin 3) * 1 + 1 * 0 = B.val; omega
  | ⟨1, _⟩ => show win0_0.index t (1 : Fin 3) * 1024 + 1 * r.val = R.val; omega
  | ⟨2, _⟩ => show win0_0.index t (2 : Fin 3) * 2048 + 1 * k.val = k.val; omega

/-- The feature block of point `t` at (0, k, d) is the node features at (B, k, d), B the block's batch. -/
theorem nodes_blk (c : Dev nD) (t : Fin cfg0.N) (k : Fin 2048) (d : Fin 64) (B : Fin 16)
    (hB : B.val = win0_1.index t (0 : Fin 3)) (h1 : win0_1.index t (1 : Fin 3) = 0) (h2 : win0_1.index t (2 : Fin 3) = 0) :
    iblk m c 1 t (ix3 (0 : Fin 1) k d) = V m c main_arg0 (ix3 B k d) := by
  show V m c main_arg0 (((cfg0.win 1).blk t).view.emb (ix3 (0 : Fin 1) k d)) = _
  refine congrArg (V m c main_arg0) (funext fun a => Fin.ext ?_)
  match a with
  | ⟨0, _⟩ => show win0_1.index t (0 : Fin 3) * 1 + 1 * 0 = B.val; omega
  | ⟨1, _⟩ => show win0_1.index t (1 : Fin 3) * 2048 + 1 * k.val = k.val; omega
  | ⟨2, _⟩ => show win0_1.index t (2 : Fin 3) * 64 + 1 * d.val = d.val; omega

/-- WHAT POINT `t` WRITES BACK is block `t` of `agg` of the argument arrays. -/
theorem flushed_eq (c : Dev nD) (t : Fin cfg0.N) :
    (dats m 0 c).flushed 2 t
      = ((cfg0.win 2).blk t).view.read (Elt Ideal) (agg (V m c main_arg0) (V m c main_arg1)) := by
  rw [Value.flushed2_A]
  show out0_A_2 c (grid0.coords t) (ms0_0 t) (hs0_0 t) (ms0_1 t) (hs0_1 t) (ms0_2 t) (hs0_2 t) (iblk m c 0 t) (iblk m c 1 t) = _
  refine block_eq c (grid0.coords t) (ms0_0 t) (hs0_0 t) (ms0_1 t) (hs0_1 t) (ms0_2 t) (hs0_2 t) (iblk m c 0 t) (iblk m c 1 t) _ ?_
  intro u r d s hs
  obtain ⟨e0, e1, e2, e3, e4, e5, e6, e7, e8, e9⟩ := idx_facts t
  have hr : r.val < 1024 := r.isLt
  have hu : u.val = 0 := by omega
  show agg (V m c main_arg0) (V m c main_arg1) (((cfg0.win 2).blk t).view.emb (ix3 u r d)) = _
  have hemb : ((cfg0.win 2).blk t).view.emb (ix3 u r d) = ix3 (⟨win0_2.index t (0 : Fin 3), e8⟩ : Fin 16) s d :=
    funext fun a => Fin.ext (by
      match a with
      | ⟨0, _⟩ => show win0_2.index t (0 : Fin 3) * 1 + 1 * u.val = win0_2.index t (0 : Fin 3); omega
      | ⟨1, _⟩ => show win0_2.index t (1 : Fin 3) * 1024 + 1 * r.val = s.val; omega
      | ⟨2, _⟩ => show win0_2.index t (2 : Fin 3) * 64 + 1 * d.val = d.val; omega)
  rw [hemb]
  show aggAt (V m c main_arg0) (V m c main_arg1) (⟨win0_2.index t (0 : Fin 3), e8⟩ : Fin 16) s d = _
  unfold aggAt
  exact rowOut_congr
    (fun k => (edges_blk m c t r k ⟨win0_2.index t (0 : Fin 3), e8⟩ s (by show win0_2.index t (0 : Fin 3) = _; omega)
      (by omega) e2).symm)
    (fun k => (nodes_blk m c t k d ⟨win0_2.index t (0 : Fin 3), e8⟩ (by show win0_2.index t (0 : Fin 3) = _; omega) e4 e5).symm)
    (nodes_blk m c t s d ⟨win0_2.index t (0 : Fin 3), e8⟩ (by show win0_2.index t (0 : Fin 3) = _; omega) e4 e5).symm

/-- An index of the result is in point `t`'s block iff each coordinate is in the block's range on its axis. -/
theorem mem_blk (t : Fin cfg0.N) (j : S16x2048x64.Idx) :
    j ∈ ((cfg0.win 2).blk t).view.set ↔ ∀ a : Fin 3, win0_2.index t a * S1x1024x64.size a ≤ (j a).val
      ∧ (j a).val < win0_2.index t a * S1x1024x64.size a + S1x1024x64.size a := by
  show j ∈ ((View.whole main_v0).slice (win0_2.rect t)).set ↔ _
  rw [View.set_slice_whole, Rect.mem_set_unit]
  exact Iff.rfl

/-- THE RESULT ARRAY after the run: the 32 blocks tile it (index (b, r, d) lies in the block of point (b, r / 1024)), so it is
    `agg` of the argument arrays as the region finds them. -/
theorem final (c : Dev nD) : (dats m 0 c).arrAt 2 cfg0.N = agg (V m c main_arg0) (V m c main_arg1) :=
  (dats m 0 c).arrAt_eq_of_cover 2 (agg (V m c main_arg0) (V m c main_arg1)) (fun t _ => flushed_eq m c t) fun j => by
    have h0 : (j 0).val < 16 := (j 0).isLt
    have h1 : (j 1).val < 2048 := (j 1).isLt
    have h2 : (j 2).val < 64 := (j 2).isLt
    obtain ⟨t, ht⟩ := idx_onto ⟨(j 0).val, h0⟩ ⟨(j 1).val / 1024, by omega⟩
    have q0 : win0_2.index t (0 : Fin 3) = (j 0).val := congrFun ht 0
    have q1 : win0_2.index t (1 : Fin 3) = (j 1).val / 1024 := congrFun ht 1
    have q2 : win0_2.index t (2 : Fin 3) = 0 := congrFun ht 2
    refine ⟨t, flush0_2 t, ?_⟩
    rw [mem_blk]
    intro a
    match a with
    | ⟨0, _⟩ =>
      show win0_2.index t (0 : Fin 3) * 1 ≤ (j 0).val ∧ (j 0).val < win0_2.index t (0 : Fin 3) * 1 + 1
      omega
    | ⟨1, _⟩ =>
      show win0_2.index t (1 : Fin 3) * 1024 ≤ (j 1).val ∧ (j 1).val < win0_2.index t (1 : Fin 3) * 1024 + 1024
      omega
    | ⟨2, _⟩ =>
      show win0_2.index t (2 : Fin 3) * 64 ≤ (j 2).val ∧ (j 2).val < win0_2.index t (2 : Fin 3) * 64 + 64
      omega

/-- THE KERNEL'S RUN, READ: every weakly fair execution terminates with the result array at `agg` of the argument arrays'
    launch contents, the arguments unchanged. -/
theorem run : θ_run defs (onTc (τ := τ) (main (F := Ideal))) ⟨m, fun _ => 0, ρ⟩ fun r => ∀ c : Dev nD,
      r.2.mem ((c : Thread nD τ).loc main_v0)
        = agg (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.Gnn.Kern

end
-- ==== Proof.lean ====
/-
  A normalized neighbourhood average: out[b, r, :] = (∑ₖ A[b, r, k] · nodes[b, k, :]) / (∑ₖ A[b, r, k]) with A = edges + I.

  The reference forms A, contracts it with the node features, divides by A's row sums and replaces a NaN quotient by zero.
  The kernel never forms A: per 1024-row tile, in two chunks of 512 rows, it computes edges · nodes + nodes[rows of the
  chunk] over rowsum(edges) + 1, with the operands of the product rounded to bf16.

  Over the extended reals the two results are the same array when every input entry is a real number:
    · rounding to bf16 is the identity, the matrix products and the row sums are plain finite sums;
    · (eₖ + δᵣₖ) · nₖ = eₖ · nₖ + δᵣₖ · nₖ for real entries, and ∑ₖ δᵣₖ · nₖ = nᵣ, ∑ₖ δᵣₖ = 1: the numerators agree and the
      denominators agree (Spec.lean, `rowRef_eq_rowOut`), so the quotients agree whatever the denominator, zero included;
    · no extended real differs from itself, so the reference's NaN mask is empty and its select keeps the quotient.
  The precondition (every entry finite) is used exactly once, for distributivity.

  The kernel side reads the stored blocks element by element (Payload.lean), assembles the two 512-row stores of a tile
  into one function of the block index (Block.lean) and the 32 blocks into one function of the argument arrays
  (KernelValue.lean); the reference side reads its result element by element (RefValue.lean). The three frames are the
  runs with the results dropped; the idealization rewrote nothing.
-/
import proofs.«176962_j55731495633081_2_alg».proof.Defs
import proofs.«176962_j55731495633081_2_alg».proof.Proof.Gen.Kernel
import proofs.«176962_j55731495633081_2_alg».proof.Proof.Gen.Kernel.Skeleton
import proofs.«176962_j55731495633081_2_alg».proof.Proof.Gen.Kernel.Launch
import proofs.«176962_j55731495633081_2_alg».proof.Proof.Gen.Kernel.Points
import proofs.«176962_j55731495633081_2_alg».proof.Proof.Gen.Kernel.Frame
import proofs.«176962_j55731495633081_2_alg».proof.Proof.Gen.KernelIdeal
import proofs.«176962_j55731495633081_2_alg».proof.Proof.Gen.KernelIdeal.Skeleton
import proofs.«176962_j55731495633081_2_alg».proof.Proof.Gen.KernelIdeal.Launch
import proofs.«176962_j55731495633081_2_alg».proof.Proof.Gen.KernelIdeal.Points
import proofs.«176962_j55731495633081_2_alg».proof.Proof.Gen.KernelIdeal.Frame
import proofs.«176962_j55731495633081_2_alg».proof.Proof.Gen.ReferenceIdeal
import proofs.«176962_j55731495633081_2_alg».proof.Proof.Gen.Pre_finite_inputs
import proofs.«176962_j55731495633081_2_alg».proof.Proof.Gen.KernelIdeal.Value
import proofs.«176962_j55731495633081_2_alg».proof.Proof.Gen.ReferenceIdeal.Run
import proofs.«176962_j55731495633081_2_alg».proof.Proof.Gen.ReferenceIdeal.Read
import proofs.«176962_j55731495633081_2_alg».proof.Proof.Spec
import proofs.«176962_j55731495633081_2_alg».proof.Proof.Finite
import proofs.«176962_j55731495633081_2_alg».proof.Proof.RefValue
import proofs.«176962_j55731495633081_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames and the idealization -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no rewrite was applied. -/
theorem preserves : Cert.preserves_Kernel_KernelIdeal := trivial

/-! ## The two results are one array -/

/-- Over real entries the reference's result is the kernel's: element by element the two quotients of Spec.lean. -/
theorem ref_eq_agg (nodes : Cert.Gnn.Nodes) (edges : Cert.Gnn.Edges)
    (hn : ∀ i, ∃ x : ℝ, nodes i = (x : EReal)) (he : ∀ i, ∃ x : ℝ, edges i = (x : EReal)) :
    Cert.ReferenceIdeal.Read.val_main_v16 (F := Ideal) nodes edges = Cert.Gnn.agg nodes edges := by
  funext j
  obtain ⟨b, r, d, rfl⟩ : ∃ (b : Fin 16) (r : Fin 2048) (d : Fin 64), j = ix3 b r d := ⟨j 0, j 1, j 2, eq_ix3 j⟩
  refine (Cert.Gnn.Ref.result_apply nodes edges b r d).trans ?_
  exact Cert.Gnn.rowRef_eq_rowOut (by norm_num) _ _ r (fun k => he _) (fun k => hn _)

/-- From memories that agree on the two inputs, both idealized programs end with the result array `agg` of the inputs. -/
theorem algebraic : Cert.algebraic_KernelIdeal_ReferenceIdeal := by
  intro m ρ m' ρ' hpre hagree
  refine ⟨fun c => Cert.Gnn.agg (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Gnn.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  obtain ⟨hn, he⟩ := Cert.Gnn.Finite.real_of_pre _ _ (hpre c)
  exact ref_eq_agg _ _ hn he

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
